-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : IVec S1600000 32) (main_arg8 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageKernelRun.lean ====
/-
  The tiled program's run, with its result buffer named.

  The program is four segments: the host operations that form the first neighbour mean, the first tiled call, the host
  operations that form the second neighbour mean from the first call's result, and the second tiled call. Running the
  segments one after the other from the launch memory, every buffer the program does not scope ends at the last
  boundary's contents; read at the result buffer that is what the second call's write-backs leave, and read at an
  argument it is the launch contents.
-/
import proofs.«128103_j47699906789905_1_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segment theorem's implicit arguments are found by unifying its conclusion with this one, which takes unfolding
-- plain definitions in a metavariable's type
set_option backward.isDefEq.respectTransparency.types false in
/-- Every weakly fair execution of the program terminates, nothing faulting, with the result buffer at the contents
    the last segment leaves there and the arguments as launched. -/
theorem run_value : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«128103_j47699906789905_1_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«128103_j47699906789905_1_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.SageDense.lean ====
/-
  One dense layer of the two-layer neighbour-mean network, read entry by entry at the extended reals.

  A layer takes each node's own feature row `x` and the mean row `μ` of its in-neighbours and returns, at
  column `q`, `(∑ k, x k · Ws (k, q)) + (∑ k, μ k · Wn (k, q)) + b q`; the first layer then takes the maximum
  with zero. The tiled unit computes this on a block of rows by two products into zero accumulators; the
  host computes it on the whole array by two `dot_general`s. Both are read here at an entry `(p, q)` from the
  rows of their operands, for any number of rows, so that a block and the whole array are read by the same
  lemmas.
-/
import proofs.«128103_j47699906789905_1_alg».proof.Proof.LibTileRows
import proofs.«128103_j47699906789905_1_alg».proof.Proof.LibHostRows

noncomputable section

namespace Cert.Sage

open Idealize.ShloMosaic Idealize.ShloMosaic.ValueIdx

variable {M K N : Nat}

/-- Column `q` of a dense layer's output row, from the node's own row `x` and its neighbours' mean row `μ`. -/
def denseRow (Ws Wn : (⟨2, ![K, N]⟩ : Shape).Idx → EReal) (b : Fin N → EReal) (x μ : Fin K → EReal) (q : Fin N) : EReal :=
  (∑ k : Fin K, x k * Ws (ix2 k q)) + (∑ k : Fin K, μ k * Wn (ix2 k q)) + b q

/-- The dense layer on a whole array of `M` rows: entry `(p, q)` is `denseRow` of row `p` of `X` and row `p` of `Mn`. -/
def denseArr (X Mn : (⟨2, ![M, K]⟩ : Shape).Idx → EReal) (Ws Wn : (⟨2, ![K, N]⟩ : Shape).Idx → EReal) (b : Fin N → EReal) :
    (⟨2, ![M, N]⟩ : Shape).Idx → EReal :=
  fun i => denseRow Ws Wn b (fun k => X (ix2 (i 0) k)) (fun k => Mn (ix2 (i 0) k)) (i 1)

/-- The rectifier on a whole array. -/
def reluArr (Y : (⟨2, ![M, N]⟩ : Shape).Idx → EReal) : (⟨2, ![M, N]⟩ : Shape).Idx → EReal := fun i => max (Y i) 0

/-- The whole two-layer network on an array of `M` rows of `K` features, over ANY neighbour-aggregation `agg` (an array of
    rows to the array of their neighbours' mean rows): a rectified dense layer of the features and their aggregate, then a
    dense layer of the hidden features and THEIR aggregate. -/
def net (agg : ((⟨2, ![M, K]⟩ : Shape).Idx → EReal) → ((⟨2, ![M, K]⟩ : Shape).Idx → EReal))
    (X : (⟨2, ![M, K]⟩ : Shape).Idx → EReal) (W1 W2 : (⟨2, ![K, K]⟩ : Shape).Idx → EReal) (b1 : Fin K → EReal)
    (W4 W5 : (⟨2, ![K, K]⟩ : Shape).Idx → EReal) (b6 : Fin K → EReal) : (⟨2, ![M, K]⟩ : Shape).Idx → EReal :=
  denseArr (reluArr (denseArr X (agg X) W1 W2 b1)) (agg (reluArr (denseArr X (agg X) W1 W2 b1))) W4 W5 b6

theorem denseArr_apply (X Mn : (⟨2, ![M, K]⟩ : Shape).Idx → EReal) (Ws Wn : (⟨2, ![K, N]⟩ : Shape).Idx → EReal) (b : Fin N → EReal)
    (p : Fin M) (q : Fin N) :
    denseArr X Mn Ws Wn b (ix2 p q) = denseRow Ws Wn b (fun k => X (ix2 p k)) (fun k => Mn (ix2 p k)) q := rfl

/-- A plain product of a tile of rows with a `K × N` matrix into the zero accumulator, whatever the operands' float
    formats: row `p` of the result is row `p` of the tile times the matrix. -/
theorem mm_plain {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (W : FVec Ideal ⟨2, ![K, N]⟩ φ₂)
    (xr : Fin M → Fin K → EReal) (wr : Fin K → Fin N → EReal)
    (hX : ∀ p k, X (ix2 p k) = xr p k) (hW : ∀ k q, W (ix2 k q) = wr k q) :
    ∀ p q, matmul d prec X W (constant ⟨2, ![M, N]⟩ .f32 0x00000000#32) (ix2 p q) = ∑ k : Fin K, xr p k * wr k q := fun p q => by
  refine (Ideal.matmul_constant_zero_apply d prec X W (ix2 p q)).trans ?_
  refine (Cert.PlainDot.sum_contr d hd X W p q).trans ?_
  exact Finset.sum_congr rfl fun k _ => by rw [hX p k, hW k q]

/-- The host's dense layer — two `dot_general`s added, then the bias vector made a one-row matrix and repeated over the
    rows — read at entry `(p, q)`. -/
theorem host_dense_apply (d : DotDims ⟨2, ![M, K]⟩ ⟨2, ![K, N]⟩ ⟨2, ![M, N]⟩) (hd : Cert.PlainDot.IsPlain d)
    (X Mn : FVec Ideal ⟨2, ![M, K]⟩ .f32) (Ws Wn : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    addf (addf (Host.dotGeneral d none X Ws) (Host.dotGeneral d none Mn Wn))
        (broadcastInDim ⟨2, ![M, N]⟩ ![0, 1] h2 (broadcastInDim ⟨2, ![1, N]⟩ ![1] h1 b)) (ix2 p q)
      = denseArr X Mn Ws Wn (fun q => b (ix1 q)) (ix2 p q) :=
  Cert.HostRows.bias_rows _ b h1 h2 _
    (Cert.TileRows.add_rows _ _ _ _
      (Cert.HostRows.dot_rows d hd none X Ws (fun p k => X (ix2 p k)) (fun _ _ => rfl))
      (Cert.HostRows.dot_rows d hd none Mn Wn (fun p k => Mn (ix2 p k)) (fun _ _ => rfl))) p q

/-- The host's dense layer as a whole array. -/
theorem host_dense (d : DotDims ⟨2, ![M, K]⟩ ⟨2, ![K, N]⟩ ⟨2, ![M, N]⟩) (hd : Cert.PlainDot.IsPlain d)
    (X Mn : FVec Ideal ⟨2, ![M, K]⟩ .f32) (Ws Wn : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1]) :
    addf (addf (Host.dotGeneral d none X Ws) (Host.dotGeneral d none Mn Wn))
        (broadcastInDim ⟨2, ![M, N]⟩ ![0, 1] h2 (broadcastInDim ⟨2, ![1, N]⟩ ![1] h1 b))
      = denseArr X Mn Ws Wn (fun q => b (ix1 q)) :=
  funext fun i => by rw [eq_ix2 i]; exact host_dense_apply d hd X Mn Ws Wn b h1 h2 (i 0) (i 1)

/-- The host's rectifier against the zero constant repeated over the array, as a whole array. -/
theorem host_relu (Y : FVec Ideal ⟨2, ![M, N]⟩ .f32) (h0 : (⟨0, ![]⟩ : Shape).BroadcastsInDim ⟨2, ![M, N]⟩ ![]) :
    maximumf Y (broadcastInDim ⟨2, ![M, N]⟩ ![] h0 (constant (F := Ideal) ⟨0, ![]⟩ .f32 0x00000000#32)) = reluArr Y :=
  funext fun i => by
    rw [eq_ix2 i]
    exact Cert.HostRows.relu_rows Y h0 (fun p q => Y (ix2 p q)) (fun _ _ => rfl) (i 0) (i 1)

end Cert.Sage

end
-- ==== Proof.SageTile.lean ====
/-
  What the tiled unit's body stores, read at an entry of its block of rows.

  Each call of the body holds a block of 10000 node rows `x0`, the same rows of the neighbour means `x1`, the two
  64 × 64 weight matrices `x2`, `x3` and the bias as a one-row matrix `x4`. It rounds the operands to a shorter float
  format (the identity at the extended reals), multiplies each block by its matrix into a zero accumulator, adds the
  two products and the bias row, and — in the first layer only — takes the maximum with zero. Entry `(p, q)` of what it
  stores is therefore the dense layer's `denseRow` of row `p` of the two blocks, rectified in the first layer.
-/
import proofs.«128103_j47699906789905_1_alg».proof.Proof.Gen.KernelIdeal.Skeleton
import proofs.«128103_j47699906789905_1_alg».proof.Proof.SageDense

noncomputable section

namespace Cert.Sage

open Idealize.ShloMosaic Idealize.ShloMosaic.ValueIdx Cert.KernelIdeal Cert.KernelIdeal.Gen

/-- The block product contracts the block's columns against the matrix's rows: a plain product. -/
theorem plain_tile : Cert.PlainDot.IsPlain dot_S10000x64_S64x64_S10000x64_1_0_0_1_n_n := ⟨rfl, rfl, rfl, rfl, rfl, rfl⟩

/-- First layer: the stored block at `(p, q)` is the rectified dense layer of row `p`. -/
theorem pay0_apply (x0 x1 : Vec Ideal S10000x64 .f32) (x2 x3 : Vec Ideal S64x64 .f32) (x4 : Vec Ideal S1x64 .f32)
    (p : Fin 10000) (q : Fin 64) :
    k0_pay1 x0 x1 x2 x3 x4 (ix2 p q)
      = max (denseRow x2 x3 (fun q => x4 (ix2 (0 : Fin 1) q)) (fun k => x0 (ix2 p k)) (fun k => x1 (ix2 p k)) q) 0 := by
  unfold k0_pay1
  exact Cert.TileRows.relu_rows _ _
    (Cert.TileRows.bias_rows _ x4 _ _ _
      (Cert.TileRows.add_rows _ _ _ _
        (mm_plain _ plain_tile none _ _ (fun p k => x0 (ix2 p k)) (fun k q => x2 (ix2 k q))
          (Cert.TileRows.trunc_rows x0 _ _ (fun _ _ => rfl)) (fun _ _ => rfl))
        (mm_plain _ plain_tile none _ _ (fun p k => x1 (ix2 p k)) (fun k q => x3 (ix2 k q))
          (Cert.TileRows.trunc_rows _ _ _ (Cert.TileRows.cast_rows x1 _ _ (fun _ _ => rfl))) (fun _ _ => rfl)))) p q

/-- Second layer: the stored block at `(p, q)` is the dense layer of row `p`, not rectified. -/
theorem pay1_apply (x0 x1 : Vec Ideal S10000x64 .f32) (x2 x3 : Vec Ideal S64x64 .f32) (x4 : Vec Ideal S1x64 .f32)
    (p : Fin 10000) (q : Fin 64) :
    k1_pay1 x0 x1 x2 x3 x4 (ix2 p q)
      = denseRow x2 x3 (fun q => x4 (ix2 (0 : Fin 1) q)) (fun k => x0 (ix2 p k)) (fun k => x1 (ix2 p k)) q := by
  unfold k1_pay1
  exact Cert.TileRows.bias_rows _ x4 _ _ _
      (Cert.TileRows.add_rows _ _ _ _
        (mm_plain _ plain_tile none _ _ (fun p k => x0 (ix2 p k)) (fun k q => x2 (ix2 k q))
          (Cert.TileRows.trunc_rows _ _ _ (Cert.TileRows.cast_rows x0 _ _ (fun _ _ => rfl))) (fun _ _ => rfl))
        (mm_plain _ plain_tile none _ _ (fun p k => x1 (ix2 p k)) (fun k q => x3 (ix2 k q))
          (Cert.TileRows.trunc_rows _ _ _ (Cert.TileRows.cast_rows x1 _ _ (fun _ _ => rfl))) (fun _ _ => rfl))) p q

/-- The same at any index of the block, its coordinates taken apart. -/
theorem pay0_at (x0 x1 : Vec Ideal S10000x64 .f32) (x2 x3 : Vec Ideal S64x64 .f32) (x4 : Vec Ideal S1x64 .f32) (j : S10000x64.Idx) :
    k0_pay1 x0 x1 x2 x3 x4 j
      = max (denseRow x2 x3 (fun q => x4 (ix2 (0 : Fin 1) q)) (fun k => x0 (ix2 (j 0) k)) (fun k => x1 (ix2 (j 0) k)) (j 1)) 0 := by
  exact (congrArg (k0_pay1 x0 x1 x2 x3 x4) (eq_ix2 j)).trans (pay0_apply x0 x1 x2 x3 x4 (j 0) (j 1))

theorem pay1_at (x0 x1 : Vec Ideal S10000x64 .f32) (x2 x3 : Vec Ideal S64x64 .f32) (x4 : Vec Ideal S1x64 .f32) (j : S10000x64.Idx) :
    k1_pay1 x0 x1 x2 x3 x4 j
      = denseRow x2 x3 (fun q => x4 (ix2 (0 : Fin 1) q)) (fun k => x0 (ix2 (j 0) k)) (fun k => x1 (ix2 (j 0) k)) (j 1) := by
  exact (congrArg (k1_pay1 x0 x1 x2 x3 x4) (eq_ix2 j)).trans (pay1_apply x0 x1 x2 x3 x4 (j 0) (j 1))

/-- Two dense-layer entries agree when their matrices, biases and rows agree. -/
theorem denseRow_congr {K N : Nat} {Ws Ws' Wn Wn' : (⟨2, ![K, N]⟩ : Shape).Idx → EReal} {b b' : Fin N → EReal} {x x' μ μ' : Fin K → EReal}
    (h1 : Ws = Ws') (h2 : Wn = Wn') (h3 : b = b') (h4 : x = x') (h5 : μ = μ') (q : Fin N) :
    denseRow Ws Wn b x μ q = denseRow Ws' Wn' b' x' μ' q := by subst h1 h2 h3 h4 h5; rfl

end Cert.Sage

end
-- ==== Proof.SageArrays.lean ====
/-
  From blocks to arrays: what each of the two tiled calls leaves in its result array.

  A call walks ten grid points; at point `t` it reads rows `10000·t … 10000·t + 9999` of the node features and of the
  neighbour means, the whole weight matrices and the whole one-row bias, and writes the same rows of the result. So
  the block written at point `t` is the block of ONE whole-array function — the dense layer of the call's operand
  arrays, rectified in the first call — and the ten blocks cover the array: the result array ends holding that function.
  Everything is stated for arbitrary contents `V` of the buffers when the call is entered.
-/
import proofs.«128103_j47699906789905_1_alg».proof.Proof.Gen.KernelIdeal.Frame
import proofs.«128103_j47699906789905_1_alg».proof.Proof.SageTile
import Idealize.ShloMosaic.Lib.Pipeline.Value

noncomputable section

open Idealize.ShloMosaic Idealize.ShloMosaic.TcCoe Idealize.SL.Sem
open Idealize.ShloMosaic.Pipeline (Dat)

namespace Cert.Sage

open Idealize.ShloMosaic.ValueIdx Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The first call's result array: the rectified dense layer of the features (`%arg0`) and the neighbour means (`%18`). -/
def arr0 (c : Dev nD) : S100000x64.Idx → EReal :=
  reluArr (denseArr (V c main_arg0 : S100000x64.Idx → EReal) (V c main_v18 : S100000x64.Idx → EReal)
    (V c main_arg1 : S64x64.Idx → EReal) (V c main_arg2 : S64x64.Idx → EReal)
    (fun q => (V c main_v19 : S1x64.Idx → EReal) (ix2 (0 : Fin 1) q)))

/-- The block index maps of the first call, decided over its ten points: the row windows follow the point, the
    matrices and the bias stay at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `10000·t + p` of the feature array. -/
theorem blk0_0 (c : Dev nD) (t : Fin cfg0.N) (p : Fin 10000) (k : Fin 64) (r : Fin 100000) (hr : r.val = t.val * 10000 + p.val) :
    (iblk0 V c 0 t : Vec Ideal S10000x64 .f32) (ix2 p k) = (V c main_arg0 : S100000x64.Idx → EReal) (ix2 r k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- Row `p` of the neighbour-mean block at point `t` is row `10000·t + p` of the neighbour-mean array. -/
theorem blk0_1 (c : Dev nD) (t : Fin cfg0.N) (p : Fin 10000) (k : Fin 64) (r : Fin 100000) (hr : r.val = t.val * 10000 + p.val) :
    (iblk0 V c 1 t : Vec Ideal S10000x64 .f32) (ix2 p k) = (V c main_v18 : S100000x64.Idx → EReal) (ix2 r k) := by
  obtain ⟨-, -, e0, e1, -⟩ := idx0 t
  unfold iblk0
  rw [View.read_apply]
  show V c main_v18 _ = V c main_v18 _
  refine congrArg (V c main_v18) ?_
  funext a
  apply Fin.ext
  match a with
  | ⟨0, _⟩ => show win0_1.index t (0 : Fin 2) * 10000 + 1 * p.val = r.val; omega
  | ⟨1, _⟩ => show win0_1.index t (1 : Fin 2) * 64 + 1 * k.val = k.val; omega

/-- The own-feature weight block is the whole matrix at every point. -/
theorem blk0_2 (c : Dev nD) (t : Fin cfg0.N) : (iblk0 V c 2 t : Vec Ideal S64x64 .f32) = (V c main_arg1 : S64x64.Idx → EReal) := by
  obtain ⟨-, -, -, -, e0, e1, -⟩ := idx0 t
  funext y
  unfold iblk0
  rw [View.read_apply]
  show V c main_arg1 _ = V c main_arg1 _
  refine congrArg (V c main_arg1) ?_
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The neighbour weight block is the whole matrix at every point. -/
theorem blk0_3 (c : Dev nD) (t : Fin cfg0.N) : (iblk0 V c 3 t : Vec Ideal S64x64 .f32) = (V c main_arg2 : S64x64.Idx → EReal) := by
  obtain ⟨-, -, -, -, -, -, e0, e1, -⟩ := idx0 t
  funext y
  unfold iblk0
  rw [View.read_apply]
  show V c main_arg2 _ = V c main_arg2 _
  refine congrArg (V c main_arg2) ?_
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The bias block is the whole one-row matrix at every point. -/
theorem blk0_4 (c : Dev nD) (t : Fin cfg0.N) : (iblk0 V c 4 t : Vec Ideal S1x64 .f32) = (V c main_v19 : S1x64.Idx → EReal) := by
  obtain ⟨-, -, -, -, -, -, -, -, e0, e1, -⟩ := idx0 t
  funext y
  unfold iblk0
  rw [View.read_apply]
  show V c main_v19 _ = V c main_v19 _
  refine congrArg (V c main_v19) ?_
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point `t` writes back is block `t` of `arr0`. -/
theorem flushed0_eq (c : Dev nD) (t : Fin cfg0.N) :
    (dat0 V c).flushed 5 t = ((cfg0.win 5).blk t).view.read (Elt Ideal) (arr0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  rw [View.read_apply]
  show k0_pay1 (iblk0 V c 0 t) (iblk0 V c 1 t) (iblk0 V c 2 t) (iblk0 V c 3 t) (iblk0 V c 4 t) (j : S10000x64.Idx)
    = arr0 V c (((cfg0.win 5).blk t).view.emb j)
  obtain ⟨-, -, -, -, -, -, -, -, -, -, e0, e1⟩ := idx0 t
  have hj0 : (j 0).val < 10000 := (j 0).isLt
  have hj1 : (j 1).val < 64 := (j 1).isLt
  have hN : t.val < 10 := lt_of_lt_of_eq t.isLt N_0
  have he : ((cfg0.win 5).blk t).view.emb j
      = (ix2 (⟨t.val * 10000 + (j 0).val, by omega⟩ : Fin 100000) (⟨(j 1).val, hj1⟩ : Fin 64) : S100000x64.Idx) := by
    funext a
    apply Fin.ext
    match a with
    | ⟨0, _⟩ => show win0_5.index t (0 : Fin 2) * 10000 + 1 * (j 0).val = t.val * 10000 + (j 0).val; omega
    | ⟨1, _⟩ => show win0_5.index t (1 : Fin 2) * 64 + 1 * (j 1).val = (j 1).val; omega
  rw [he]
  refine (pay0_at _ _ _ _ _ j).trans ?_
  unfold arr0 reluArr
  rw [denseArr_apply]
  refine congrArg (fun y => max y 0) ?_
  refine denseRow_congr (blk0_2 V c t) (blk0_3 V c t) (funext fun q => congrFun (blk0_4 V c t) _)
    (funext fun k => blk0_0 V c t ⟨(j 0).val, hj0⟩ k _ rfl) (funext fun k => blk0_1 V c t ⟨(j 0).val, hj0⟩ k _ rfl) _

/-- An index of the result array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v20).slice (win0_5.rect t)).set ↔ _
  rw [View.set_slice_whole, Rect.mem_set_unit]
  exact Iff.rfl

/-- Row `r` of the result array is written at point `r / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 10000 < cfg0.N := by rw [show cfg0.N = 10 from N_0]; omega
  refine ⟨⟨(i 0).val / 10000, hlt⟩, flush0_5 _, ?_⟩
  rw [mem_blk0]
  obtain ⟨-, -, -, -, -, -, -, -, -, -, e0, e1⟩ := idx0 ⟨(i 0).val / 10000, hlt⟩
  intro a
  match a with
  | ⟨0, _⟩ =>
    show win0_5.index ⟨(i 0).val / 10000, hlt⟩ (0 : Fin 2) * 10000 ≤ (i 0).val ∧ (i 0).val < win0_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, hlt⟩ (1 : Fin 2) * 64 ≤ (i 1).val ∧ (i 1).val < win0_5.index ⟨(i 0).val / 10000, hlt⟩ (1 : Fin 2) * 64 + 64
    rw [e1]; omega

/-- The first call's result array after the call. -/
theorem final0 (c : Dev nD) : (dat0 V c).arrAt 5 cfg0.N = arr0 V c :=
  (dat0 V c).arrAt_eq_of_cover 5 (arr0 V c) (fun t _ => flushed0_eq V c t) cover0

/-! ## The second call -/

/-- The second call's result array: the dense layer, not rectified, of the hidden features (`%20`) and their neighbour means (`%39`). -/
def arr1 (c : Dev nD) : S100000x64.Idx → EReal :=
  denseArr (V c main_v20 : S100000x64.Idx → EReal) (V c main_v39 : S100000x64.Idx → EReal)
    (V c main_arg4 : S64x64.Idx → EReal) (V c main_arg5 : S64x64.Idx → EReal)
    (fun q => (V c main_v40 : S1x64.Idx → EReal) (ix2 (0 : Fin 1) q))

/-- The block index maps of the second call: the same walk. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the hidden-feature block at point `t` is row `10000·t + p` of the hidden-feature array. -/
theorem blk1_0 (c : Dev nD) (t : Fin cfg1.N) (p : Fin 10000) (k : Fin 64) (r : Fin 100000) (hr : r.val = t.val * 10000 + p.val) :
    (iblk1 V c 0 t : Vec Ideal S10000x64 .f32) (ix2 p k) = (V c main_v20 : S100000x64.Idx → EReal) (ix2 r k) := by
  obtain ⟨e0, e1, -⟩ := idx1 t
  unfold iblk1
  rw [View.read_apply]
  show V c main_v20 _ = V c main_v20 _
  refine congrArg (V c main_v20) ?_
  funext a
  apply Fin.ext
  match a with
  | ⟨0, _⟩ => show win1_0.index t (0 : Fin 2) * 10000 + 1 * p.val = r.val; omega
  | ⟨1, _⟩ => show win1_0.index t (1 : Fin 2) * 64 + 1 * k.val = k.val; omega

/-- Row `p` of the neighbour-mean block at point `t` is row `10000·t + p` of the neighbour-mean array. -/
theorem blk1_1 (c : Dev nD) (t : Fin cfg1.N) (p : Fin 10000) (k : Fin 64) (r : Fin 100000) (hr : r.val = t.val * 10000 + p.val) :
    (iblk1 V c 1 t : Vec Ideal S10000x64 .f32) (ix2 p k) = (V c main_v39 : S100000x64.Idx → EReal) (ix2 r k) := by
  obtain ⟨-, -, e0, e1, -⟩ := idx1 t
  unfold iblk1
  rw [View.read_apply]
  show V c main_v39 _ = V c main_v39 _
  refine congrArg (V c main_v39) ?_
  funext a
  apply Fin.ext
  match a with
  | ⟨0, _⟩ => show win1_1.index t (0 : Fin 2) * 10000 + 1 * p.val = r.val; omega
  | ⟨1, _⟩ => show win1_1.index t (1 : Fin 2) * 64 + 1 * k.val = k.val; omega

/-- The own-feature weight block is the whole matrix at every point. -/
theorem blk1_2 (c : Dev nD) (t : Fin cfg1.N) : (iblk1 V c 2 t : Vec Ideal S64x64 .f32) = (V c main_arg4 : S64x64.Idx → EReal) := by
  obtain ⟨-, -, -, -, e0, e1, -⟩ := idx1 t
  funext y
  unfold iblk1
  rw [View.read_apply]
  show V c main_arg4 _ = V c main_arg4 _
  refine congrArg (V c main_arg4) ?_
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The neighbour weight block is the whole matrix at every point. -/
theorem blk1_3 (c : Dev nD) (t : Fin cfg1.N) : (iblk1 V c 3 t : Vec Ideal S64x64 .f32) = (V c main_arg5 : S64x64.Idx → EReal) := by
  obtain ⟨-, -, -, -, -, -, e0, e1, -⟩ := idx1 t
  funext y
  unfold iblk1
  rw [View.read_apply]
  show V c main_arg5 _ = V c main_arg5 _
  refine congrArg (V c main_arg5) ?_
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias block is the whole one-row matrix at every point. -/
theorem blk1_4 (c : Dev nD) (t : Fin cfg1.N) : (iblk1 V c 4 t : Vec Ideal S1x64 .f32) = (V c main_v40 : S1x64.Idx → EReal) := by
  obtain ⟨-, -, -, -, -, -, -, -, e0, e1, -⟩ := idx1 t
  funext y
  unfold iblk1
  rw [View.read_apply]
  show V c main_v40 _ = V c main_v40 _
  refine congrArg (V c main_v40) ?_
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of `arr1`. -/
theorem flushed1_eq (c : Dev nD) (t : Fin cfg1.N) :
    (dat1 V c).flushed 5 t = ((cfg1.win 5).blk t).view.read (Elt Ideal) (arr1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  rw [View.read_apply]
  show k1_pay1 (iblk1 V c 0 t) (iblk1 V c 1 t) (iblk1 V c 2 t) (iblk1 V c 3 t) (iblk1 V c 4 t) (j : S10000x64.Idx)
    = arr1 V c (((cfg1.win 5).blk t).view.emb j)
  obtain ⟨-, -, -, -, -, -, -, -, -, -, e0, e1⟩ := idx1 t
  have hj0 : (j 0).val < 10000 := (j 0).isLt
  have hj1 : (j 1).val < 64 := (j 1).isLt
  have hN : t.val < 10 := lt_of_lt_of_eq t.isLt N_1
  have he : ((cfg1.win 5).blk t).view.emb j
      = (ix2 (⟨t.val * 10000 + (j 0).val, by omega⟩ : Fin 100000) (⟨(j 1).val, hj1⟩ : Fin 64) : S100000x64.Idx) := by
    funext a
    apply Fin.ext
    match a with
    | ⟨0, _⟩ => show win1_5.index t (0 : Fin 2) * 10000 + 1 * (j 0).val = t.val * 10000 + (j 0).val; omega
    | ⟨1, _⟩ => show win1_5.index t (1 : Fin 2) * 64 + 1 * (j 1).val = (j 1).val; omega
  rw [he]
  refine (pay1_at _ _ _ _ _ j).trans ?_
  unfold arr1
  rw [denseArr_apply]
  refine denseRow_congr (blk1_2 V c t) (blk1_3 V c t) (funext fun q => congrFun (blk1_4 V c t) _)
    (funext fun k => blk1_0 V c t ⟨(j 0).val, hj0⟩ k _ rfl) (funext fun k => blk1_1 V c t ⟨(j 0).val, hj0⟩ k _ rfl) _

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v41).slice (win1_5.rect t)).set ↔ _
  rw [View.set_slice_whole, Rect.mem_set_unit]
  exact Iff.rfl

/-- Row `r` of the result array is written at point `r / 10000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 10000 < cfg1.N := by rw [show cfg1.N = 10 from N_1]; omega
  refine ⟨⟨(i 0).val / 10000, hlt⟩, flush1_5 _, ?_⟩
  rw [mem_blk1]
  obtain ⟨-, -, -, -, -, -, -, -, -, -, e0, e1⟩ := idx1 ⟨(i 0).val / 10000, hlt⟩
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hlt⟩ (1 : Fin 2) * 64 ≤ (i 1).val ∧ (i 1).val < win1_5.index ⟨(i 0).val / 10000, hlt⟩ (1 : Fin 2) * 64 + 64
    rw [e1]; omega

/-- The second call's result array after the call. -/
theorem final1 (c : Dev nD) : (dat1 V c).arrAt 5 cfg1.N = arr1 V c :=
  (dat1 V c).arrAt_eq_of_cover 5 (arr1 V c) (fun t _ => flushed1_eq V c t) cover1

end Cert.Sage

end
-- ==== Proof.SageKernelValue.lean ====
/-
  The tiled program's result as the two-layer network.

  The host operations before each tiled call form the neighbour aggregate of that call's input — carried as ONE function
  `aggK`, never opened — and turn the bias vector into a one-row matrix; they write no argument. The first call leaves
  the rectified dense layer of the features and their aggregate in its result array; the second stretch of host
  operations aggregates THAT array; the second call leaves the dense layer of the two. Walking the buffer contents
  from the last segment boundary back to the launch memory, the result buffer holds the two-layer network of the
  arguments.
-/
import proofs.«128103_j47699906789905_1_alg».proof.Proof.Gen.KernelIdeal.Frame
import proofs.«128103_j47699906789905_1_alg».proof.Proof.SageArrays
import Idealize.ShloMosaic.Lib.StableHlo.Run
import Idealize.ShloMosaic.Lib.ValueLayout

noncomputable section

namespace Cert.Sage

open Idealize.ShloMosaic Idealize.ShloMosaic.TcCoe Idealize.SL.Sem Idealize.ShloMosaic.ValueIdx Idealize.ShloMosaic.StableHlo
open Cert.KernelIdeal Cert.KernelIdeal.Gen

/-- The neighbour mean as the tiled program's host operations compute it from a feature array `h` and the edges'
    sources and destinations: a negative source index wrapped, the source rows gathered, added into their destination
    rows, and the sums divided by the destinations' counts clipped below at one. -/
def aggK {F : FTy → Type} [FloatOps F] (h : (⟨S100000x64, .f32⟩ : BufTy).Contents (Elt F)) (src dst : (⟨S1600000, .i32⟩ : BufTy).Contents (Elt F)) :
    (⟨S100000x64, .f32⟩ : BufTy).Contents (Elt F) :=
  Host.divf (Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32)))))

theorem aggK_congr {h h' : (⟨S100000x64, .f32⟩ : BufTy).Contents (Elt Ideal)} {s s' d d' : (⟨S1600000, .i32⟩ : BufTy).Contents (Elt Ideal)}
    (e1 : h = h') (e2 : s = s') (e3 : d = d') : aggK h s d = aggK h' s' d' := by subst e1 e2 e3; rfl

/-- Two dense layers agree when their operands agree. -/
theorem denseArr_congr {M K N : Nat} {X X' Mn Mn' : (⟨2, ![M, K]⟩ : Shape).Idx → EReal} {Ws Ws' Wn Wn' : (⟨2, ![K, N]⟩ : Shape).Idx → EReal}
    {b b' : Fin N → EReal} (e1 : X = X') (e2 : Mn = Mn') (e3 : Ws = Ws') (e4 : Wn = Wn') (e5 : b = b') :
    denseArr X Mn Ws Wn b = denseArr X' Mn' Ws' Wn' b' := by subst e1 e2 e3 e4 e5; rfl

/-! ## The host operations, from any contents `W` -/

section Stages

variable (W : Valuation τ sig (Elt Ideal))

/-- The first stretch leaves the aggregate of the features in `%18`. -/
theorem ops0_v18 : after (hostOps0 (F := Ideal)) W (Proc.devRef .tc main_v18)
    = aggK (W (Proc.devRef .tc main_arg0)) (W (Proc.devRef .tc main_arg7)) (W (Proc.devRef .tc main_arg8)) := by
  after_results_simp <;> rfl
/-- … and the first bias as a one-row matrix in `%19`. -/
theorem ops0_v19 : after (hostOps0 (F := Ideal)) W (Proc.devRef .tc main_v19)
    = fun i => shapeCast S1x64 (W (Proc.devRef .tc main_arg3)) shapeCasts_S64_S1x64 i := by
  after_results_simp <;> rfl
theorem ops0_arg0 : after (hostOps0 (F := Ideal)) W (Proc.devRef .tc main_arg0) = W (Proc.devRef .tc main_arg0) := by after_results_simp <;> rfl
theorem ops0_arg1 : after (hostOps0 (F := Ideal)) W (Proc.devRef .tc main_arg1) = W (Proc.devRef .tc main_arg1) := by after_results_simp <;> rfl
theorem ops0_arg2 : after (hostOps0 (F := Ideal)) W (Proc.devRef .tc main_arg2) = W (Proc.devRef .tc main_arg2) := by after_results_simp <;> rfl
theorem ops0_arg4 : after (hostOps0 (F := Ideal)) W (Proc.devRef .tc main_arg4) = W (Proc.devRef .tc main_arg4) := by after_results_simp <;> rfl
theorem ops0_arg5 : after (hostOps0 (F := Ideal)) W (Proc.devRef .tc main_arg5) = W (Proc.devRef .tc main_arg5) := by after_results_simp <;> rfl
theorem ops0_arg6 : after (hostOps0 (F := Ideal)) W (Proc.devRef .tc main_arg6) = W (Proc.devRef .tc main_arg6) := by after_results_simp <;> rfl
theorem ops0_arg7 : after (hostOps0 (F := Ideal)) W (Proc.devRef .tc main_arg7) = W (Proc.devRef .tc main_arg7) := by after_results_simp <;> rfl
theorem ops0_arg8 : after (hostOps0 (F := Ideal)) W (Proc.devRef .tc main_arg8) = W (Proc.devRef .tc main_arg8) := by after_results_simp <;> rfl

/-- The second stretch leaves the aggregate of the first call's result `%20` in `%39`. -/
theorem ops1_v39 : after (hostOps1 (F := Ideal)) W (Proc.devRef .tc main_v39)
    = aggK (W (Proc.devRef .tc main_v20)) (W (Proc.devRef .tc main_arg7)) (W (Proc.devRef .tc main_arg8)) := by
  after_results_simp <;> rfl
/-- … and the second bias as a one-row matrix in `%40`. -/
theorem ops1_v40 : after (hostOps1 (F := Ideal)) W (Proc.devRef .tc main_v40)
    = fun i => shapeCast S1x64 (W (Proc.devRef .tc main_arg6)) shapeCasts_S64_S1x64 i := by
  after_results_simp <;> rfl
theorem ops1_v20 : after (hostOps1 (F := Ideal)) W (Proc.devRef .tc main_v20) = W (Proc.devRef .tc main_v20) := by after_results_simp <;> rfl
theorem ops1_arg4 : after (hostOps1 (F := Ideal)) W (Proc.devRef .tc main_arg4) = W (Proc.devRef .tc main_arg4) := by after_results_simp <;> rfl
theorem ops1_arg5 : after (hostOps1 (F := Ideal)) W (Proc.devRef .tc main_arg5) = W (Proc.devRef .tc main_arg5) := by after_results_simp <;> rfl

end Stages

/-! ## The contents at the segment boundaries, read back to the launch memory -/

variable (m : (ℓ : Loc nD τ sig) → Buf (Elt Ideal) ℓ) (ρ : Dev nD → PrngReg)

/-- The first call's result array: the rectified dense layer of the features and their aggregate. -/
theorem hidden_eq (c : Dev nD) :
    arr0 (V1 m ρ) c = reluArr (denseArr ((m ((c.tc : Thread nD τ).loc main_arg0)) : S100000x64.Idx → EReal)
      (aggK (m ((c.tc : Thread nD τ).loc main_arg0)) (m ((c.tc : Thread nD τ).loc main_arg7)) (m ((c.tc : Thread nD τ).loc main_arg8)))
      ((m ((c.tc : Thread nD τ).loc main_arg1)) : S64x64.Idx → EReal) ((m ((c.tc : Thread nD τ).loc main_arg2)) : S64x64.Idx → EReal)
      (fun q => ((m ((c.tc : Thread nD τ).loc main_arg3)) : S64.Idx → EReal) (ix1 q))) := by
  unfold arr0
  refine congrArg reluArr (denseArr_congr (ops0_arg0 (W0 m ρ c)) (ops0_v18 (W0 m ρ c)) (ops0_arg1 (W0 m ρ c)) (ops0_arg2 (W0 m ρ c)) (funext fun q => ?_))
  show after (hostOps0 (F := Ideal)) (W0 m ρ c) (Proc.devRef .tc main_v19) (ix2 (0 : Fin 1) q) = _
  rw [ops0_v19]
  exact shapeCast_a_1a_apply _ _ 0 q

/-- At the second call's entry the first call's result buffer holds that array. -/
theorem W2_hidden (c : Dev nD) :
    W2 m ρ c (Proc.devRef .tc main_v20) = reluArr (denseArr ((m ((c.tc : Thread nD τ).loc main_arg0)) : S100000x64.Idx → EReal)
      (aggK (m ((c.tc : Thread nD τ).loc main_arg0)) (m ((c.tc : Thread nD τ).loc main_arg7)) (m ((c.tc : Thread nD τ).loc main_arg8)))
      ((m ((c.tc : Thread nD τ).loc main_arg1)) : S64x64.Idx → EReal) ((m ((c.tc : Thread nD τ).loc main_arg2)) : S64x64.Idx → EReal)
      (fun q => ((m ((c.tc : Thread nD τ).loc main_arg3)) : S64.Idx → EReal) (ix1 q))) :=
  (W2_arr m ρ c 5).trans ((final0 (V1 m ρ) c).trans (hidden_eq m ρ c))

/-- An argument the first call does not read is, after the call, as launched. -/
theorem W2_arg4 (c : Dev nD) : W2 m ρ c (Proc.devRef .tc main_arg4) = (m ((c.tc : Thread nD τ).loc main_arg4)) :=
  (W2_of_ne m ρ c main_arg4 (by decide)).trans (ops0_arg4 (W0 m ρ c))
theorem W2_arg5 (c : Dev nD) : W2 m ρ c (Proc.devRef .tc main_arg5) = (m ((c.tc : Thread nD τ).loc main_arg5)) :=
  (W2_of_ne m ρ c main_arg5 (by decide)).trans (ops0_arg5 (W0 m ρ c))
theorem W2_arg6 (c : Dev nD) : W2 m ρ c (Proc.devRef .tc main_arg6) = (m ((c.tc : Thread nD τ).loc main_arg6)) :=
  (W2_of_ne m ρ c main_arg6 (by decide)).trans (ops0_arg6 (W0 m ρ c))
theorem W2_arg7 (c : Dev nD) : W2 m ρ c (Proc.devRef .tc main_arg7) = (m ((c.tc : Thread nD τ).loc main_arg7)) :=
  (W2_of_ne m ρ c main_arg7 (by decide)).trans (ops0_arg7 (W0 m ρ c))
theorem W2_arg8 (c : Dev nD) : W2 m ρ c (Proc.devRef .tc main_arg8) = (m ((c.tc : Thread nD τ).loc main_arg8)) :=
  (W2_of_ne m ρ c main_arg8 (by decide)).trans (ops0_arg8 (W0 m ρ c))

/-- THE RESULT: after the last segment the result buffer holds the two-layer network of the arguments, over the
    program's own aggregate. -/
theorem result_eq (c : Dev nD) :
    W4 m ρ c (Proc.devRef .tc main_v41)
      = net (fun h => aggK (F := Ideal) h (m ((c.tc : Thread nD τ).loc main_arg7)) (m ((c.tc : Thread nD τ).loc main_arg8)))
          ((m ((c.tc : Thread nD τ).loc main_arg0)) : S100000x64.Idx → EReal)
          ((m ((c.tc : Thread nD τ).loc main_arg1)) : S64x64.Idx → EReal) ((m ((c.tc : Thread nD τ).loc main_arg2)) : S64x64.Idx → EReal)
          (fun q => ((m ((c.tc : Thread nD τ).loc main_arg3)) : S64.Idx → EReal) (ix1 q))
          ((m ((c.tc : Thread nD τ).loc main_arg4)) : S64x64.Idx → EReal) ((m ((c.tc : Thread nD τ).loc main_arg5)) : S64x64.Idx → EReal)
          (fun q => ((m ((c.tc : Thread nD τ).loc main_arg6)) : S64.Idx → EReal) (ix1 q)) := by
  refine ((W4_arr m ρ c 5).trans (final1 (V3 m ρ) c)).trans ?_
  unfold arr1 net
  refine denseArr_congr ((ops1_v20 (W2 m ρ c)).trans (W2_hidden m ρ c)) ?_
    ((ops1_arg4 (W2 m ρ c)).trans (W2_arg4 m ρ c)) ((ops1_arg5 (W2 m ρ c)).trans (W2_arg5 m ρ c)) (funext fun q => ?_)
  · exact (ops1_v39 (W2 m ρ c)).trans (aggK_congr (W2_hidden m ρ c) (W2_arg7 m ρ c) (W2_arg8 m ρ c))
  · show after (hostOps1 (F := Ideal)) (W2 m ρ c) (Proc.devRef .tc main_v40) (ix2 (0 : Fin 1) q) = _
    rw [ops1_v40]
    refine (shapeCast_a_1a_apply _ _ 0 q).trans ?_
    exact congrFun (W2_arg6 m ρ c) (ix1 q)

end Cert.Sage

end
-- ==== Proof.SageRef.lean ====
/-
  The host program's result as the two-layer network.

  The host computes, for each layer, the neighbour aggregate of its input (gather the source rows of the edges, add
  them into their destination rows, divide by the in-degree clipped below at one), two `dot_general`s, the bias, and
  after the first layer the rectifier. The aggregate is carried as ONE function `aggR` and never opened; the dense
  part of each layer is read entry by entry.
-/
import proofs.«128103_j47699906789905_1_alg».proof.Proof.Gen.ReferenceIdeal.Run
import proofs.«128103_j47699906789905_1_alg».proof.Proof.SageDense

noncomputable section

namespace Cert.Sage

open Idealize.ShloMosaic Idealize.ShloMosaic.TcCoe Idealize.SL.Sem Idealize.ShloMosaic.ValueIdx
open Cert.ReferenceIdeal Cert.ReferenceIdeal.Gen

/-- The neighbour mean as the host program computes it from a feature array `h` and the edges' sources and
    destinations: a negative source index wrapped, the source rows gathered, added into their destination rows, and the
    sums divided by the destinations' counts clipped below at one. -/
def aggR {F : FTy → Type} [FloatOps F] (h : (⟨S100000x64, .f32⟩ : BufTy).Contents (Elt F)) (src dst : (⟨S1600000, .i32⟩ : BufTy).Contents (Elt F)) :
    (⟨S100000x64, .f32⟩ : BufTy).Contents (Elt F) :=
  Host.divf (Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32)))))

/-- The host's products contract the left operand's columns against the right operand's rows. -/
theorem plain_ref : Cert.PlainDot.IsPlain dot_S100000x64_S64x64_S100000x64_1_0_0_1_n_n := ⟨rfl, rfl, rfl, rfl, rfl, rfl⟩

/-- The host program's result is the two-layer network of its arguments over its own aggregate. -/
theorem res_eq (m : (ℓ : Loc nD τ sig) → Buf (Elt Ideal) ℓ) (c : Dev nD) :
    Cert.ReferenceIdeal.Value.res_main_v50 (F := Ideal) m c
      = net (fun h => aggR (F := Ideal) h (m ((c.tc : Thread nD τ).loc main_arg7)) (m ((c.tc : Thread nD τ).loc main_arg8)))
          (m ((c.tc : Thread nD τ).loc main_arg0) : S100000x64.Idx → EReal)
          (m ((c.tc : Thread nD τ).loc main_arg1) : S64x64.Idx → EReal) (m ((c.tc : Thread nD τ).loc main_arg2) : S64x64.Idx → EReal)
          (fun q => (m ((c.tc : Thread nD τ).loc main_arg3) : S64.Idx → EReal) (ix1 q))
          (m ((c.tc : Thread nD τ).loc main_arg4) : S64x64.Idx → EReal) (m ((c.tc : Thread nD τ).loc main_arg5) : S64x64.Idx → EReal)
          (fun q => (m ((c.tc : Thread nD τ).loc main_arg6) : S64.Idx → EReal) (ix1 q)) := by
  unfold Cert.ReferenceIdeal.Value.res_main_v50
  rw [host_dense _ plain_ref, host_dense _ plain_ref, host_relu]
  rfl

end Cert.Sage

end
-- ==== Proof.lean ====
/-
  A two-layer neighbour-mean graph network on 100000 nodes with 64 features: the tiled program against its plain
  reference, at the extended reals.

  Each layer maps a feature array `h` to `h · W_self + mean(h) · W_neigh + b`, where `mean(h)` gathers the source rows
  of the 1600000 edges, adds them into their destination rows and divides by the in-degree clipped below at one; the
  first layer is followed by the maximum with zero. Both programs form `mean(h)` by the same host operations, so it
  is carried as one function of `h` and the two edge lists and never opened. They differ in the dense part only: the
  reference uses two whole-array `dot_general`s, the tiled program walks the rows in ten blocks of 10000 and multiplies
  each block into a zero accumulator after rounding the operands to a shorter float format. At the extended reals the
  rounding is the identity and each product, block or whole, is the same finite sum of products, so entry by entry
  both results are `Cert.Sage.net` of the arguments. No law of the extended reals beyond reading the operations is
  needed, so the finiteness of the inputs is never used.

  The three frames are the generated ones (the reference's is its generated run with the result dropped); no
  operation was rewritten by the idealization, so `preserves` is `True`.
-/
import proofs.«128103_j47699906789905_1_alg».proof.Defs
import proofs.«128103_j47699906789905_1_alg».proof.Proof.Gen.Kernel
import proofs.«128103_j47699906789905_1_alg».proof.Proof.Gen.Kernel.Skeleton
import proofs.«128103_j47699906789905_1_alg».proof.Proof.Gen.Kernel.Launch
import proofs.«128103_j47699906789905_1_alg».proof.Proof.Gen.Kernel.Points
import proofs.«128103_j47699906789905_1_alg».proof.Proof.Gen.Kernel.Frame
import proofs.«128103_j47699906789905_1_alg».proof.Proof.Gen.KernelIdeal
import proofs.«128103_j47699906789905_1_alg».proof.Proof.Gen.KernelIdeal.Skeleton
import proofs.«128103_j47699906789905_1_alg».proof.Proof.Gen.KernelIdeal.Launch
import proofs.«128103_j47699906789905_1_alg».proof.Proof.Gen.KernelIdeal.Points
import proofs.«128103_j47699906789905_1_alg».proof.Proof.Gen.KernelIdeal.Frame
import proofs.«128103_j47699906789905_1_alg».proof.Proof.Gen.ReferenceIdeal
import proofs.«128103_j47699906789905_1_alg».proof.Proof.Gen.ReferenceIdeal.Run
import proofs.«128103_j47699906789905_1_alg».proof.Proof.Gen.Pre_finite_inputs
import proofs.«128103_j47699906789905_1_alg».proof.Proof.SageKernelRun
import proofs.«128103_j47699906789905_1_alg».proof.Proof.SageKernelValue
import proofs.«128103_j47699906789905_1_alg».proof.Proof.SageRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs' neighbour aggregates are the same operations on the same shapes: one function. -/
theorem agg_eq (h : (⟨Cert.KernelIdeal.S100000x64, .f32⟩ : BufTy).Contents (Elt Ideal))
    (s d : (⟨Cert.KernelIdeal.S1600000, .i32⟩ : BufTy).Contents (Elt Ideal)) :
    Cert.Sage.aggR (F := Ideal) h s d = Cert.Sage.aggK (F := Ideal) h s d := rfl

/-- From memories agreeing on the arguments both programs end with the two-layer network of the arguments in their
    result buffers: the tiled program by its run read back through its four segments, the reference by its run's
    composed term read layer by layer; the aggregates are one function. -/
theorem algebraic : Cert.algebraic_KernelIdeal_ReferenceIdeal := by
  intro m ρ m' ρ' _ hagree
  refine ⟨_, (θ_run Cert.KernelIdeal.defs _ _).mono (fun r h c => ⟨(h c).1.trans (Cert.Sage.result_eq m ρ c), (h c).2⟩)
    (Cert.Sage.run_value (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.Sage.res_eq]
  obtain ⟨e0, e1, e2, e3, e4, e5, e6, e7, e8⟩ := hagree c
  rw [e0, e1, e2, e3, e4, e5, e6, e7, e8]
  exact congrArg (fun a => Cert.Sage.net a _ _ _ _ _ _ _) (funext fun h => agg_eq h _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
